-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S256x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x1024 .f32) (main_arg6 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S4096x1024 .f32) (main_arg4 : FVec F S4096 .f32) (main_arg5 : FVec F S4096x1024 .f32) (main_arg6 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S16384x1024 : Shape := ⟨2, ![16384, 1024]⟩
abbrev S4096x1024 : Shape := ⟨2, ![4096, 1024]⟩
abbrev S4096 : Shape := ⟨1, ![4096]⟩
abbrev S1024x4096 : Shape := ⟨2, ![1024, 4096]⟩
abbrev S2048x4096 : Shape := ⟨2, ![2048, 4096]⟩
abbrev S1x4096 : Shape := ⟨2, ![1, 4096]⟩
abbrev S256x1024 : Shape := ⟨2, ![256, 1024]⟩
abbrev S256x2048 : Shape := ⟨2, ![256, 2048]⟩
abbrev S2048x1024 : Shape := ⟨2, ![2048, 1024]⟩
abbrev S1x1024 : Shape := ⟨2, ![1, 1024]⟩

abbrev nBuf : Space → Nat
  | .hbm => 18
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S1024x4096, .f32⟩
  | .hbm, ⟨8, _⟩ => ⟨S1024x4096, .f32⟩
  | .hbm, ⟨9, _⟩ => ⟨S2048x4096, .f32⟩
  | .hbm, ⟨10, _⟩ => ⟨S2048x4096, .bf16⟩
  | .hbm, ⟨11, _⟩ => ⟨S2048x4096, .f32⟩
  | .hbm, ⟨12, _⟩ => ⟨S2048x4096, .f32⟩
  | .hbm, ⟨13, _⟩ => ⟨S2048x4096, .bf16⟩
  | .hbm, ⟨14, _⟩ => ⟨S4096, .f32⟩
  | .hbm, ⟨15, _⟩ => ⟨S1x4096, .f32⟩
  | .hbm, ⟨16, _⟩ => ⟨S16384x1024, .f32⟩
  | .hbm, ⟨17, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S2048x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4096x1024_S1024x4096_1_0 : S4096x1024.Transposes [1, 0] S1024x4096
  concatenates_S1024x4096_S1024x4096_S2048x4096_d0 : Shape.Concatenates [S1024x4096, S1024x4096] S2048x4096 0
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x4096_S2048x1024_0_0 : ∀ a, (![0, 0] : Fin 2 → Nat) a + S2048x1024.size a ≤ S2048x4096.size a
  h_S2048x1024 : 0 < S2048x1024.numel
  shapeCasts_S2048x1024_S2048x1024 : S2048x1024.ShapeCasts S2048x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  natLt_1_32 : 1 < 32
  inb_S2048x4096_S2048x1024_0_1024 : ∀ a, (![0, 1024] : Fin 2 → Nat) a + S2048x1024.size a ≤ S2048x4096.size a
  inb_S1x4096_S1x1024_0_1024 : ∀ a, (![0, 1024] : Fin 2 → Nat) a + S1x1024.size a ≤ S1x4096.size a
  inb_S2048x4096_S2048x1024_0_2048 : ∀ a, (![0, 2048] : Fin 2 → Nat) a + S2048x1024.size a ≤ S2048x4096.size a
  inb_S1x4096_S1x1024_0_2048 : ∀ a, (![0, 2048] : Fin 2 → Nat) a + S1x1024.size a ≤ S1x4096.size a
  inb_S2048x4096_S2048x1024_0_3072 : ∀ a, (![0, 3072] : Fin 2 → Nat) a + S2048x1024.size a ≤ S2048x4096.size a
  inb_S1x4096_S1x1024_0_3072 : ∀ a, (![0, 3072] : Fin 2 → Nat) a + S1x1024.size a ≤ S1x4096.size a
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x4096.size a ≤ S2048x4096.size a
  hwx0_4 : ∀ i : grid0.Coords, EltTy.bits .bf16 = 32 ∨ (Rect.block (s := S2048x4096) S2048x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S1024x4096 : Shape := ⟨2, ![1024, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S1024x4096, .f32⟩
  | .hbm, ⟨8, _⟩ => ⟨S16384x4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S1024x4096, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .i1⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .i1⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .i1⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .i1⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .i1⟩
  | .hbm, ⟨44, _⟩ => ⟨S16384x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.Spec.lean ====
/-
  One step of a spiking LSTM cell, as one function of the seven argument arrays, on the extended reals.

  For a batch row `r` and a gate column `j` the membrane value is
  `gate r j = ((∑ₖ hx r k · Wh j k + bh j) + ∑ₖ x r k · Wi j k) + bi j`; a neuron fires (`spk`) where its value
  reaches the threshold.  The four gates are the four quarters of the 4096 columns, and
  `cy = f · cx + i · g`, `hy = o · spk cy`.

  The second half of the file is the law that joins the two programs.  One program forms each gate from the
  concatenated row `z = [hx | x]` against the stacked weights in three products — `z·W + z·(W − W) + (z − z)·W` —
  plus the sum of the two biases; for real entries the two correction products vanish, the long sum splits into its
  two halves, and what is left is a rearrangement of a sum.
-/
import Idealize.ShloMosaic.Lib.ValueIdx
import Idealize.ShloMosaic.PureOps.Ideal.Laws

noncomputable section

namespace Cert.LifLstm

open Idealize.ShloMosaic Idealize.ShloMosaic.ValueIdx

/-- The batch arrays `x`, `hx`, `cx` and both results. -/
abbrev SB : Shape := ⟨2, ![16384, 1024]⟩
/-- A weight matrix, one row per gate column. -/
abbrev SW : Shape := ⟨2, ![4096, 1024]⟩
/-- A bias vector. -/
abbrev SV : Shape := ⟨1, ![4096]⟩

/-- The firing threshold: the single-precision word nearest 0.3. -/
def thr : EReal := Ideal.ofBits .f32 0x3E99999A#32

/-- A neuron's spike: one where the membrane value reaches the threshold, zero elsewhere. -/
def spk (v : EReal) : EReal := (((Ideal.cmp .oge v thr).toNat : ℝ) : EReal)

/-- Column `o + q` of the 4096 gate columns: entry `q` of the quarter that starts at `o`. -/
def col (o : Nat) (ho : o + 1024 ≤ 4096) (q : Fin 1024) : Fin 4096 := ⟨o + q.val, by omega⟩

section Cell

variable (x hx cx : FVec Ideal SB .f32) (Wh : FVec Ideal SW .f32) (bh : FVec Ideal SV .f32)
  (Wi : FVec Ideal SW .f32) (bi : FVec Ideal SV .f32)

/-- The membrane value of gate column `j` on batch row `r`. -/
def gate (r : Fin 16384) (j : Fin 4096) : EReal :=
  (((∑ k : Fin 1024, hx (ix2 r k) * Wh (ix2 j k)) + bh (ix1 j)) + ∑ k : Fin 1024, x (ix2 r k) * Wi (ix2 j k)) + bi (ix1 j)

/-- The new cell state: forget-spike times the old state plus input-spike times candidate-spike. -/
def cyAt (r : Fin 16384) (q : Fin 1024) : EReal :=
  spk (gate x hx Wh bh Wi bi r (col 1024 (by omega) q)) * cx (ix2 r q)
    + spk (gate x hx Wh bh Wi bi r (col 0 (by omega) q)) * spk (gate x hx Wh bh Wi bi r (col 2048 (by omega) q))

/-- The new hidden state: output-spike times the spike of the new cell state. -/
def hyAt (r : Fin 16384) (q : Fin 1024) : EReal :=
  spk (gate x hx Wh bh Wi bi r (col 3072 (by omega) q)) * spk (cyAt x hx cx Wh bh Wi bi r q)

/-- The cell-state result as one array. -/
def Gcy : FVec Ideal SB .f32 := fun i => cyAt x hx cx Wh bh Wi bi (i 0) (i 1)

/-- The hidden-state result as one array. -/
def Ghy : FVec Ideal SB .f32 := fun i => hyAt x hx cx Wh bh Wi bi (i 0) (i 1)

end Cell

/-! ## A one-bit comparison read signed after widening is the bit read unsigned -/

theorem widen_signed (b : BitVec 1) : ((((b.setWidth 32).toInt : ℤ) : ℝ) : EReal) = (((b.toNat : ℕ) : ℝ) : EReal) := by
  by_cases h : b = 1#1
  · subst h
    have e1 : ((1#1 : BitVec 1).setWidth 32).toInt = 1 := by decide
    have e2 : (1#1 : BitVec 1).toNat = 1 := by decide
    rw [e1, e2]; norm_num
  · rw [eq_zero_of_ne_one h]
    have e1 : ((0#1 : BitVec 1).setWidth 32).toInt = 0 := by decide
    have e2 : (0#1 : BitVec 1).toNat = 0 := by decide
    rw [e1, e2]; norm_num

/-- The spike written with a widened, signed comparison bit. -/
theorem spk_signed (v : EReal) : (((((Ideal.cmp .oge v thr).setWidth 32).toInt : ℤ) : ℝ) : EReal) = spk v :=
  widen_signed _

/-! ## The long sum in two halves -/

/-- Row `k` of the lower half of 2048 rows. -/
def lo (k : Fin 1024) : Fin 2048 := ⟨k.val, by omega⟩
/-- Row `1024 + k`, of the upper half. -/
def hi (k : Fin 1024) : Fin 2048 := ⟨1024 + k.val, by omega⟩

theorem lo_or_hi (k : Fin 2048) : (∃ k', k = lo k') ∨ (∃ k', k = hi k') := by
  by_cases h : k.val < 1024
  · exact .inl ⟨⟨k.val, h⟩, Fin.ext rfl⟩
  · exact .inr ⟨⟨k.val - 1024, by omega⟩, Fin.ext (by show k.val = 1024 + (k.val - 1024); omega)⟩

theorem sum_halves {M : Type*} [AddCommMonoid M] (f : Fin 2048 → M) :
    ∑ k : Fin 2048, f k = ∑ k : Fin 1024, f (lo k) + ∑ k : Fin 1024, f (hi k) := by
  refine (Fin.sum_univ_add (a := 1024) (b := 1024) f).trans ?_
  rfl

/-! ## The three-product form of a gate is the two-product form -/

theorem real_sub_self {v : EReal} (h : ∃ r : ℝ, v = (r : EReal)) : v - v = 0 := by
  obtain ⟨r, rfl⟩ := h
  rw [← EReal.coe_sub, sub_self, EReal.coe_zero]

/-- With real entries: `z·w + z·(w − w) + (z − z)·w + (A + B)`, summed over the concatenated row of 2048 entries,
    is `(a·b + A) + c·d + B`, where `a, c` are the two halves of `z` and `b, d` those of `w`. -/
theorem gate_forms (zf wf : Fin 2048 → EReal) (a b c d : Fin 1024 → EReal)
    (hza : ∀ k, zf (lo k) = a k) (hzc : ∀ k, zf (hi k) = c k) (hwb : ∀ k, wf (lo k) = b k) (hwd : ∀ k, wf (hi k) = d k)
    (fa : ∀ k, ∃ r : ℝ, a k = (r : EReal)) (fb : ∀ k, ∃ r : ℝ, b k = (r : EReal))
    (fc : ∀ k, ∃ r : ℝ, c k = (r : EReal)) (fd : ∀ k, ∃ r : ℝ, d k = (r : EReal)) (A B : EReal) :
    ((∑ k, zf k * wf k + ∑ k, zf k * (wf k - wf k)) + ∑ k, (zf k - zf k) * wf k) + (A + B)
      = ((∑ k, a k * b k + A) + ∑ k, c k * d k) + B := by
  have fz : ∀ k, zf k - zf k = 0 := fun k => by
    rcases lo_or_hi k with ⟨k', rfl⟩ | ⟨k', rfl⟩
    · rw [hza]; exact real_sub_self (fa k')
    · rw [hzc]; exact real_sub_self (fc k')
  have fw : ∀ k, wf k - wf k = 0 := fun k => by
    rcases lo_or_hi k with ⟨k', rfl⟩ | ⟨k', rfl⟩
    · rw [hwb]; exact real_sub_self (fb k')
    · rw [hwd]; exact real_sub_self (fd k')
  simp only [fz, fw, mul_zero, zero_mul, Finset.sum_const_zero, add_zero]
  rw [sum_halves]
  simp only [hza, hzc, hwb, hwd]
  rw [add_add_add_comm, ← add_assoc]

end Cert.LifLstm

end
-- ==== Proof.Payload.lean ====
/-
  What one grid point computes, entry by entry, over arbitrary loaded blocks.

  The body concatenates its two row blocks into `z = [hx | x]` (256 × 2048), and for each of the four gates takes a
  2048 × 1024 slice `wh` of the high weights, the matching slice `wl` of the low weights and a 1 × 1024 slice `bs` of
  the bias, and forms `z·wh + z·wl + (z − z)·wh + bs` (the row of biases repeated down the 256 rows), then thresholds.
  At entry `(p, q)` each product into the zero accumulator is a sum over the 2048 columns of `z`.
-/
import proofs.«109783_j14370960572434_2_alg».proof.Proof.Gen.KernelIdeal.Skeleton
import proofs.«109783_j14370960572434_2_alg».proof.Proof.LibPlainDot
import proofs.«109783_j14370960572434_2_alg».proof.Proof.Spec
import Idealize.ShloMosaic.Lib.Pipeline.Value
import Idealize.ShloMosaic.Lib.ValueIdx

noncomputable section

namespace Cert.LifLstm.Payload

open Idealize.ShloMosaic Idealize.ShloMosaic.ValueIdx Cert.KernelIdeal Cert.KernelIdeal.Gen
open Cert.LifLstm

/-! ## The membrane value of one gate, as vectors and at an entry -/

/-- The gate's membrane block: three products into zero accumulators, added, plus the bias row repeated. -/
def preV (zh zl : FVec Ideal S256x2048 .bf16) (wh wl : FVec Ideal S2048x1024 .bf16) (bs : FVec Ideal S1x1024 .f32) :
    FVec Ideal S256x1024 .f32 :=
  addf (addf (addf
      (matmul dot_S256x2048_S2048x1024_S256x1024_1_0_0_1_n_n none zh (shapeCast S2048x1024 wh shapeCasts_S2048x1024_S2048x1024) (constant S256x1024 .f32 0x00000000#32))
      (matmul dot_S256x2048_S2048x1024_S256x1024_1_0_0_1_n_n none zh (shapeCast S2048x1024 wl shapeCasts_S2048x1024_S2048x1024) (constant S256x1024 .f32 0x00000000#32)))
      (matmul dot_S256x2048_S2048x1024_S256x1024_1_0_0_1_n_n none zl (shapeCast S2048x1024 wh shapeCasts_S2048x1024_S2048x1024) (constant S256x1024 .f32 0x00000000#32)))
    (broadcastTo S256x1024 (shapeCast S1x1024 bs shapeCasts_S1x1024_S1x1024) broadcasts_S1x1024_S256x1024)

/-- The same value at entry `(p, q)`: three sums over the 2048 columns plus the bias of column `q`. -/
def pre (zh zl : FVec Ideal S256x2048 .bf16) (wh wl : FVec Ideal S2048x1024 .bf16) (bs : FVec Ideal S1x1024 .f32)
    (p : Fin 256) (q : Fin 1024) : EReal :=
  ((∑ k : Fin 2048, zh (ix2 p k) * wh (ix2 k q) + ∑ k : Fin 2048, zh (ix2 p k) * wl (ix2 k q))
    + ∑ k : Fin 2048, zl (ix2 p k) * wh (ix2 k q)) + bs (ix2 (0 : Fin 1) q)

/-- The bias row repeated down the rows, at an entry. -/
theorem bias_row (bs : FVec Ideal S1x1024 .f32) (p : Fin 256) (q : Fin 1024) :
    broadcastTo S256x1024 (shapeCast S1x1024 bs shapeCasts_S1x1024_S1x1024) broadcasts_S1x1024_S256x1024 (ix2 p q)
      = bs (ix2 (0 : Fin 1) q) := by
  rw [shapeCast_self]
  exact broadcastTo_apply bs broadcasts_S1x1024_S256x1024 (ix2 p q) (ix2 (0 : Fin 1) q) (fun a => match a with
    | ⟨0, _⟩ => by show 0 = (if (1 : Nat) = 1 then 0 else p.val); rw [if_pos rfl]
    | ⟨1, _⟩ => by show q.val = (if (1024 : Nat) = 1 then 0 else q.val); rw [if_neg (by decide)])

theorem preV_apply (zh zl : FVec Ideal S256x2048 .bf16) (wh wl : FVec Ideal S2048x1024 .bf16) (bs : FVec Ideal S1x1024 .f32)
    (p : Fin 256) (q : Fin 1024) : preV zh zl wh wl bs (ix2 p q) = pre zh zl wh wl bs p q := by
  unfold preV pre
  rw [addf_apply, addf_apply, addf_apply, bias_row, shapeCast_self, shapeCast_self,
    Cert.PlainDot.matmul_zero_ix2 dot_S256x2048_S2048x1024_S256x1024_1_0_0_1_n_n rfl,
    Cert.PlainDot.matmul_zero_ix2 dot_S256x2048_S2048x1024_S256x1024_1_0_0_1_n_n rfl,
    Cert.PlainDot.matmul_zero_ix2 dot_S256x2048_S2048x1024_S256x1024_1_0_0_1_n_n rfl]

/-! ## Thresholding -/

/-- A block thresholded: the comparison against the repeated threshold, widened and read as a signed integer. -/
def spkV (v : FVec Ideal S256x1024 .f32) : FVec Ideal S256x1024 .f32 :=
  sitofp .f32 (extui 32 (cmpf .oge v (broadcast S256x1024 (Scalar.ofBits .f32 0x3E99999A#32))) natLt_1_32)

theorem spkV_apply (v : FVec Ideal S256x1024 .f32) (i : S256x1024.Idx) : spkV v i = spk (v i) :=
  spk_signed (v i)

/-! ## The body's named values are these -/

variable (v0 v1 v2 : Vec Ideal S256x1024 .f32) (a b : Vec Ideal S2048x1024 .bf16) (c : Vec Ideal S1x1024 .f32)

theorem pay6_eq : k0_pay6 v0 v1 a b c = spkV (preV (k0_pay4 v0 v1) (k0_pay5 v0 v1) a b c) := rfl
theorem pay78_eq : k0_pay8 (k0_pay7 v0 v1 a b) c = spkV (preV (k0_pay4 v0 v1) (k0_pay5 v0 v1) a b c) := rfl
theorem pay9_eq (v4 v7 : FVec Ideal S256x2048 .bf16) : k0_pay9 v4 v7 a b c = spkV (preV v4 v7 a b c) := rfl
theorem pay10_eq (v4 v7 : FVec Ideal S256x2048 .bf16) : k0_pay10 v4 v7 a b c = preV v4 v7 a b c := rfl

/-- The cell-state block: forget-spikes times the old state plus input-spikes times candidate-spikes. -/
theorem pay1_apply (v24 v41 v58 : FVec Ideal S256x1024 .f32) (i : S256x1024.Idx) :
    k0_pay1 v2 v24 v41 v58 i = v41 i * v2 i + v24 i * v58 i := rfl

/-- The hidden-state block: output-spikes times the spikes of the cell state. -/
theorem pay2_apply (v24 v41 v58 v71 : FVec Ideal S256x1024 .f32) (i : S256x1024.Idx) :
    k0_pay2 v2 v24 v41 v58 v71 (k0_pay11 (F := Ideal)) i = spk (v71 i) * spk (k0_pay1 v2 v24 v41 v58 i) := by
  show spkV v71 i * spkV (k0_pay1 v2 v24 v41 v58) i = _
  rw [spkV_apply, spkV_apply]

/-! ## The concatenated row block, half by half -/

theorem cat_lo (p : Fin 256) (k : Fin 1024) : k0_pay3 v0 v1 (ix2 p (lo k)) = v1 (ix2 p k) :=
  concatenate_pair_apply_left (1 : Fin 2) v1 v0 concatenates_S256x1024_S256x1024_S256x2048_d1 (ix2 p (lo k)) rfl (ix2 p k)
    (fun b => match b with | ⟨0, _⟩ => rfl | ⟨1, _⟩ => rfl)

theorem cat_hi (p : Fin 256) (k : Fin 1024) : k0_pay3 v0 v1 (ix2 p (hi k)) = v0 (ix2 p k) :=
  concatenate_pair_apply_right (1 : Fin 2) v1 v0 concatenates_S256x1024_S256x1024_S256x2048_d1 (ix2 p (hi k)) rfl rfl (ix2 p k)
    (fun b => match b with | ⟨0, _⟩ => fun _ => rfl | ⟨1, _⟩ => fun h => absurd rfl h)
    (by show k.val + 1024 = 1024 + k.val; omega)

end Cert.LifLstm.Payload

end
-- ==== Proof.BlockValue.lean ====
/-
  What one grid point leaves in its two output blocks is the specification's cell, entry by entry — for ANY loaded
  blocks that hold the right entries of the argument arrays.

  The hypotheses say what the blocks hold: row `p` of the three row blocks is batch row `r` of `x`, `hx`, `cx`; the
  high-weight block stacks the transposed weight matrices (`Wh` in rows 0–1023, `Wi` in rows 1024–2047); the
  low-weight block is the high one minus itself; the bias block is `bh + bi`.  With real entries each gate's
  three-product form collapses to the specification's membrane value.
-/
import proofs.«109783_j14370960572434_2_alg».proof.Proof.Gen.KernelIdeal.Frame
import proofs.«109783_j14370960572434_2_alg».proof.Proof.Payload
import proofs.«109783_j14370960572434_2_alg».proof.Proof.Spec

noncomputable section

namespace Cert.LifLstm.BlockValue

open Idealize.ShloMosaic Idealize.ShloMosaic.ValueIdx Cert.KernelIdeal Cert.KernelIdeal.Gen
open Cert.LifLstm Cert.LifLstm.Payload

theorem hz : (![0, 0] : Fin 2 → Nat) = fun _ => 0 := funext fun a => by fin_cases a <;> rfl

/-- A 2048 × 1024 slice of a 2048 × 4096 block starting at column `o`, at an entry. -/
theorem ld_cols (X : Vec Ideal S2048x4096 .bf16) (o : Nat) (ho : o + 1024 ≤ 4096)
    (inb : ∀ a, (![0, o] : Fin 2 → Nat) a + S2048x1024.size a ≤ S2048x4096.size a) (k : Fin 2048) (q : Fin 1024) :
    View.ld X (Rect.unit (s := S2048x4096) ![0, o] S2048x1024.size inb) (ix2 k q) = X (ix2 k (col o ho q)) := by
  show X _ = X _
  congr 1; funext a; apply Fin.ext
  match a with
  | ⟨0, _⟩ => show 0 + 1 * k.val = k.val; omega
  | ⟨1, _⟩ => show o + 1 * q.val = o + q.val; omega

/-- A 1 × 1024 slice of the 1 × 4096 bias block starting at column `o`, at an entry. -/
theorem ld_bias (X : Vec Ideal S1x4096 .f32) (o : Nat) (ho : o + 1024 ≤ 4096)
    (inb : ∀ a, (![0, o] : Fin 2 → Nat) a + S1x1024.size a ≤ S1x4096.size a) (q : Fin 1024) :
    View.ld X (Rect.unit (s := S1x4096) ![0, o] S1x1024.size inb) (ix2 (0 : Fin 1) q) = X (ix2 (0 : Fin 1) (col o ho q)) := by
  show X _ = X _
  congr 1; funext a; apply Fin.ext
  match a with
  | ⟨0, _⟩ => show 0 + 1 * 0 = 0; omega
  | ⟨1, _⟩ => show o + 1 * q.val = o + q.val; omega

section Point

variable (x0 x1 x2 : Vec Ideal S256x1024 .f32) (x3 x4 : Vec Ideal S2048x4096 .bf16) (x5 : Vec Ideal S1x4096 .f32)
  (X HX CX : FVec Ideal SB .f32) (Wh : FVec Ideal SW .f32) (bh : FVec Ideal SV .f32) (Wi : FVec Ideal SW .f32)
  (bi : FVec Ideal SV .f32) (p : Fin 256) (r : Fin 16384)

/-- One gate: the three-product form over the loaded slices is the specification's membrane value. -/
theorem gate_block
    (h0 : ∀ k : Fin 1024, x0 (ix2 p k) = X (ix2 r k)) (h1 : ∀ k : Fin 1024, x1 (ix2 p k) = HX (ix2 r k))
    (h3lo : ∀ (k : Fin 1024) (j : Fin 4096), x3 (ix2 (lo k) j) = Wh (ix2 j k))
    (h3hi : ∀ (k : Fin 1024) (j : Fin 4096), x3 (ix2 (hi k) j) = Wi (ix2 j k))
    (h4 : ∀ i : S2048x4096.Idx, x4 i = x3 i - x3 i)
    (h5 : ∀ j : Fin 4096, x5 (ix2 (0 : Fin 1) j) = bh (ix1 j) + bi (ix1 j))
    (fX : ∀ i, ∃ v : ℝ, X i = (v : EReal)) (fHX : ∀ i, ∃ v : ℝ, HX i = (v : EReal))
    (fWh : ∀ i, ∃ v : ℝ, Wh i = (v : EReal)) (fWi : ∀ i, ∃ v : ℝ, Wi i = (v : EReal))
    (o : Nat) (ho : o + 1024 ≤ 4096)
    (inb : ∀ a, (![0, o] : Fin 2 → Nat) a + S2048x1024.size a ≤ S2048x4096.size a)
    (inb' : ∀ a, (![0, o] : Fin 2 → Nat) a + S1x1024.size a ≤ S1x4096.size a) (q : Fin 1024) :
    pre (k0_pay4 x0 x1) (k0_pay5 x0 x1)
        (View.ld x3 (Rect.unit (s := S2048x4096) ![0, o] S2048x1024.size inb))
        (View.ld x4 (Rect.unit (s := S2048x4096) ![0, o] S2048x1024.size inb))
        (View.ld x5 (Rect.unit (s := S1x4096) ![0, o] S1x1024.size inb')) p q
      = gate X HX Wh bh Wi bi r (col o ho q) := by
  unfold pre
  simp only [ld_cols x3 o ho inb, ld_cols x4 o ho inb, ld_bias x5 o ho inb', h4, h5]
  exact gate_forms (fun k => k0_pay3 x0 x1 (ix2 p k)) (fun k => x3 (ix2 k (col o ho q)))
    (fun k => HX (ix2 r k)) (fun k => Wh (ix2 (col o ho q) k)) (fun k => X (ix2 r k)) (fun k => Wi (ix2 (col o ho q) k))
    (fun k => (cat_lo x0 x1 p k).trans (h1 k)) (fun k => (cat_hi x0 x1 p k).trans (h0 k))
    (fun k => h3lo k _) (fun k => h3hi k _) (fun _ => fHX _) (fun _ => fWh _) (fun _ => fX _) (fun _ => fWi _) _ _

/-- The cell-state block at entry `(p, q)` is the specification's new cell state of batch row `r`, column `q`. -/
theorem out7_at
    (h0 : ∀ k : Fin 1024, x0 (ix2 p k) = X (ix2 r k)) (h1 : ∀ k : Fin 1024, x1 (ix2 p k) = HX (ix2 r k))
    (h2 : ∀ k : Fin 1024, x2 (ix2 p k) = CX (ix2 r k))
    (h3lo : ∀ (k : Fin 1024) (j : Fin 4096), x3 (ix2 (lo k) j) = Wh (ix2 j k))
    (h3hi : ∀ (k : Fin 1024) (j : Fin 4096), x3 (ix2 (hi k) j) = Wi (ix2 j k))
    (h4 : ∀ i : S2048x4096.Idx, x4 i = x3 i - x3 i)
    (h5 : ∀ j : Fin 4096, x5 (ix2 (0 : Fin 1) j) = bh (ix1 j) + bi (ix1 j))
    (fX : ∀ i, ∃ v : ℝ, X i = (v : EReal)) (fHX : ∀ i, ∃ v : ℝ, HX i = (v : EReal))
    (fWh : ∀ i, ∃ v : ℝ, Wh i = (v : EReal)) (fWi : ∀ i, ∃ v : ℝ, Wi i = (v : EReal)) (q : Fin 1024) :
    out0_7 x0 x1 x2 x3 x4 x5 (ix2 p q) = cyAt X HX CX Wh bh Wi bi r q := by
  unfold out0_7
  rw [View.canon_unit_zero hz]
  simp only [View.ld_unit_zero (S := S256x1024) hz]
  rw [pay1_apply, pay6_eq, pay78_eq, pay9_eq, spkV_apply, spkV_apply, spkV_apply, preV_apply, preV_apply, preV_apply,
    gate_block x0 x1 x3 x4 x5 X HX Wh bh Wi bi p r h0 h1 h3lo h3hi h4 h5 fX fHX fWh fWi 0 (by omega),
    gate_block x0 x1 x3 x4 x5 X HX Wh bh Wi bi p r h0 h1 h3lo h3hi h4 h5 fX fHX fWh fWi 1024 (by omega),
    gate_block x0 x1 x3 x4 x5 X HX Wh bh Wi bi p r h0 h1 h3lo h3hi h4 h5 fX fHX fWh fWi 2048 (by omega), h2]
  rfl

/-- The hidden-state block at entry `(p, q)` is the specification's new hidden state there. -/
theorem out6_at
    (h0 : ∀ k : Fin 1024, x0 (ix2 p k) = X (ix2 r k)) (h1 : ∀ k : Fin 1024, x1 (ix2 p k) = HX (ix2 r k))
    (h2 : ∀ k : Fin 1024, x2 (ix2 p k) = CX (ix2 r k))
    (h3lo : ∀ (k : Fin 1024) (j : Fin 4096), x3 (ix2 (lo k) j) = Wh (ix2 j k))
    (h3hi : ∀ (k : Fin 1024) (j : Fin 4096), x3 (ix2 (hi k) j) = Wi (ix2 j k))
    (h4 : ∀ i : S2048x4096.Idx, x4 i = x3 i - x3 i)
    (h5 : ∀ j : Fin 4096, x5 (ix2 (0 : Fin 1) j) = bh (ix1 j) + bi (ix1 j))
    (fX : ∀ i, ∃ v : ℝ, X i = (v : EReal)) (fHX : ∀ i, ∃ v : ℝ, HX i = (v : EReal))
    (fWh : ∀ i, ∃ v : ℝ, Wh i = (v : EReal)) (fWi : ∀ i, ∃ v : ℝ, Wi i = (v : EReal)) (q : Fin 1024) :
    out0_6 x0 x1 x2 x3 x4 x5 (ix2 p q) = hyAt X HX CX Wh bh Wi bi r q := by
  unfold out0_6
  rw [View.canon_unit_zero hz]
  simp only [View.ld_unit_zero (S := S256x1024) hz]
  rw [pay2_apply, pay1_apply, pay6_eq, pay78_eq, pay9_eq, pay10_eq, spkV_apply, spkV_apply, spkV_apply,
    preV_apply, preV_apply, preV_apply, preV_apply,
    gate_block x0 x1 x3 x4 x5 X HX Wh bh Wi bi p r h0 h1 h3lo h3hi h4 h5 fX fHX fWh fWi 0 (by omega),
    gate_block x0 x1 x3 x4 x5 X HX Wh bh Wi bi p r h0 h1 h3lo h3hi h4 h5 fX fHX fWh fWi 1024 (by omega),
    gate_block x0 x1 x3 x4 x5 X HX Wh bh Wi bi p r h0 h1 h3lo h3hi h4 h5 fX fHX fWh fWi 2048 (by omega),
    gate_block x0 x1 x3 x4 x5 X HX Wh bh Wi bi p r h0 h1 h3lo h3hi h4 h5 fX fHX fWh fWi 3072 (by omega), h2]
  rfl

end Point

end Cert.LifLstm.BlockValue

end
-- ==== Proof.HostPrefix.lean ====
/-
The host operations before the kernel's one call, read at an index, at the ideal instance.

Before the call the program prepares three arrays from its weight and bias arguments.  Write `Wh`, `Wi` for the two
4096×1024 weight matrices and `bh`, `bi` for the two bias vectors of length 4096.

* The two weight matrices are transposed and stacked: a 2048×4096 array whose row `k` (for `k < 1024`) is column `k`
  of `Wh` and whose row `1024 + k` is column `k` of `Wi`.  It is rounded to half precision; over the extended reals a
  rounding is the identity, so the rounded array ("the high part") IS the stacked array.
* The low part is the stacked array minus its rounded copy widened back, rounded again: at the ideal instance that is
  `x − x` entry by entry (which is `0` wherever the entry is a real number; nothing here needs that).
* The two bias vectors are added and the sum is laid out as one row of 4096 entries.
-/
import proofs.«109783_j14370960572434_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.LifLstm.HostPrefix

open Cert.KernelIdeal Cert.KernelIdeal.Gen Idealize.ShloMosaic Idealize.ShloMosaic.TcCoe Idealize.ShloMosaic.ValueIdx

/-! ## Rows of the stacked array -/

/-- Row `k` of the lower half of a 2048-row array. -/
def lo (k : Fin 1024) : Fin 2048 := ⟨k.val, by omega⟩
/-- Row `k` of the upper half of a 2048-row array: row `1024 + k`. -/
def hi (k : Fin 1024) : Fin 2048 := ⟨1024 + k.val, by omega⟩

@[simp] theorem lo_val (k : Fin 1024) : (lo k).val = k.val := rfl
@[simp] theorem hi_val (k : Fin 1024) : (hi k).val = 1024 + k.val := rfl

/-! ## Two transposed matrices stacked, for any two matrices -/

/-- Two 4096×1024 matrices, each transposed, stacked along the rows: a 2048×4096 array. -/
abbrev stack (x3 x5 : S4096x1024.Idx → EReal) : S2048x4096.Idx → EReal :=
  concatenate S2048x4096 0
    [⟨S1024x4096, transpose S1024x4096 [1, 0] x3 transposes_S4096x1024_S1024x4096_1_0⟩,
     ⟨S1024x4096, transpose S1024x4096 [1, 0] x5 transposes_S4096x1024_S1024x4096_1_0⟩]
    concatenates_S1024x4096_S1024x4096_S2048x4096_d0

/-- Entry `(k, j)` of the lower half is entry `(j, k)` of the first matrix: the row falls in the first piece of the
    concatenation, and a transpose swaps the two coordinates. -/
theorem stack_lo (x3 x5 : S4096x1024.Idx → EReal) (k : Fin 1024) (j : Fin 4096) :
    stack x3 x5 (ix2 (lo k) j) = x3 (ix2 j k) := by
  unfold stack
  rw [concatenate_pair_apply_left (t := S2048x4096) (s₁ := S1024x4096) (s₂ := S1024x4096) (0 : Fin 2) _ _
    concatenates_S1024x4096_S1024x4096_S2048x4096_d0 (ix2 (lo k) j) rfl (ix2 k j : S1024x4096.Idx)
    (fun b => match b with | ⟨0, _⟩ => rfl | ⟨1, _⟩ => rfl)]
  exact transpose_ix2_apply x3 _ k j

/-- Entry `(1024 + k, j)` of the stacked array is entry `(j, k)` of the second matrix: the row falls in the second
    piece, 1024 rows past the first piece's extent. -/
theorem stack_hi (x3 x5 : S4096x1024.Idx → EReal) (k : Fin 1024) (j : Fin 4096) :
    stack x3 x5 (ix2 (hi k) j) = x5 (ix2 j k) := by
  unfold stack
  rw [concatenate_pair_apply_right (t := S2048x4096) (s₁ := S1024x4096) (s₂ := S1024x4096) (0 : Fin 2) _ _
    concatenates_S1024x4096_S1024x4096_S2048x4096_d0 (ix2 (hi k) j) rfl rfl (ix2 k j : S1024x4096.Idx)
    (fun b => match b with | ⟨0, _⟩ => fun h => absurd rfl h | ⟨1, _⟩ => fun _ => rfl)
    (by show k.val + 1024 = 1024 + k.val; omega)]
  exact transpose_ix2_apply x5 _ k j

/-! ## The three prepared arrays, at the launch memory -/

section
variable (m : (ℓ : Loc nD τ sig) → Buf (Elt Ideal) ℓ) (c : Dev nD)

/-- The high part is the stacked array of the two weight matrices: the rounding to half precision is the identity
    over the extended reals. -/
theorem v3_eq :
    (V (F := Ideal) m c main_v3 : S2048x4096.Idx → EReal)
      = stack (m ((c : Thread nD τ).loc main_arg3) : S4096x1024.Idx → EReal)
          (m ((c : Thread nD τ).loc main_arg5) : S4096x1024.Idx → EReal) := by
  dsimp only [Gen.V, Gen.hostOps0]
  after_results
  rfl

/-- The high part at `(k, j)`, `k < 1024`: the first weight matrix at `(j, k)`. -/
theorem hi_lo (k : Fin 1024) (j : Fin 4096) :
    (V (F := Ideal) m c main_v3 : S2048x4096.Idx → EReal) (ix2 (lo k) j)
      = (m ((c : Thread nD τ).loc main_arg3) : S4096x1024.Idx → EReal) (ix2 j k) := by
  rw [v3_eq m c, stack_lo]

/-- The high part at `(1024 + k, j)`: the second weight matrix at `(j, k)`. -/
theorem hi_hi (k : Fin 1024) (j : Fin 4096) :
    (V (F := Ideal) m c main_v3 : S2048x4096.Idx → EReal) (ix2 (hi k) j)
      = (m ((c : Thread nD τ).loc main_arg5) : S4096x1024.Idx → EReal) (ix2 j k) := by
  rw [v3_eq m c, stack_hi]

/-- The high part at any row below 1024, the row given with its bound. -/
theorem hi_of_lt (r : Fin 2048) (j : Fin 4096) (h : r.val < 1024) :
    (V (F := Ideal) m c main_v3 : S2048x4096.Idx → EReal) (ix2 r j)
      = (m ((c : Thread nD τ).loc main_arg3) : S4096x1024.Idx → EReal) (ix2 j ⟨r.val, h⟩) := by
  have e : lo ⟨r.val, h⟩ = r := Fin.ext rfl
  calc (V (F := Ideal) m c main_v3 : S2048x4096.Idx → EReal) (ix2 r j)
      = (V (F := Ideal) m c main_v3 : S2048x4096.Idx → EReal) (ix2 (lo ⟨r.val, h⟩) j) := by rw [e]
    _ = _ := hi_lo m c ⟨r.val, h⟩ j

/-- The high part at any row from 1024 on, the row given with its bound. -/
theorem hi_of_ge (r : Fin 2048) (j : Fin 4096) (h : 1024 ≤ r.val) :
    (V (F := Ideal) m c main_v3 : S2048x4096.Idx → EReal) (ix2 r j)
      = (m ((c : Thread nD τ).loc main_arg5) : S4096x1024.Idx → EReal)
          (ix2 j ⟨r.val - 1024, by have := r.isLt; omega⟩) := by
  have e : hi ⟨r.val - 1024, by have := r.isLt; omega⟩ = r :=
    Fin.ext (by show 1024 + (r.val - 1024) = r.val; omega)
  calc (V (F := Ideal) m c main_v3 : S2048x4096.Idx → EReal) (ix2 r j)
      = (V (F := Ideal) m c main_v3 : S2048x4096.Idx → EReal)
          (ix2 (hi ⟨r.val - 1024, by have := r.isLt; omega⟩) j) := by rw [e]
    _ = _ := hi_hi m c ⟨r.val - 1024, by have := r.isLt; omega⟩ j

/-- The low part, as a whole array: the stacked array minus its rounded copy, rounded; every rounding and widening
    being the identity over the extended reals, it is the high part minus itself, entry by entry. -/
theorem v6_eq :
    (V (F := Ideal) m c main_v6 : S2048x4096.Idx → EReal)
      = fun i => HSub.hSub (α := EReal) (β := EReal) (γ := EReal)
          ((V (F := Ideal) m c main_v3 : S2048x4096.Idx → EReal) i)
          ((V (F := Ideal) m c main_v3 : S2048x4096.Idx → EReal) i) := by
  rw [v3_eq m c]
  dsimp only [Gen.V, Gen.hostOps0]
  after_results
  rfl

/-- The low part at any index: the high part there minus itself. -/
theorem lo_eq (i : S2048x4096.Idx) :
    (V (F := Ideal) m c main_v6 : S2048x4096.Idx → EReal) i
      = HSub.hSub (α := EReal) (β := EReal) (γ := EReal)
          ((V (F := Ideal) m c main_v3 : S2048x4096.Idx → EReal) i)
          ((V (F := Ideal) m c main_v3 : S2048x4096.Idx → EReal) i) :=
  congrFun (v6_eq m c) i

/-- The bias row, as a whole array: the sum of the two bias vectors laid out as one row. -/
theorem v8_eq :
    (V (F := Ideal) m c main_v8 : S1x4096.Idx → EReal)
      = shapeCast S1x4096
          (addf (F := Ideal) (s := S4096) (φ := .f32)
            (m ((c : Thread nD τ).loc main_arg4)) (m ((c : Thread nD τ).loc main_arg6)))
          shapeCasts_S4096_S1x4096 := by
  dsimp only [Gen.V, Gen.hostOps0]
  after_results
  rfl

/-- The bias row at column `j`: the sum of the two bias vectors' entries `j` (entry `j` of a vector and entry `(0, j)`
    of the one-row matrix have the same row-major position). -/
theorem bias (j : Fin 4096) :
    (V (F := Ideal) m c main_v8 : S1x4096.Idx → EReal) (ix2 (0 : Fin 1) j)
      = HAdd.hAdd (α := EReal) (β := EReal) (γ := EReal)
          ((m ((c : Thread nD τ).loc main_arg4) : S4096.Idx → EReal) (ix1 j))
          ((m ((c : Thread nD τ).loc main_arg6) : S4096.Idx → EReal) (ix1 j)) := by
  rw [v8_eq m c, shapeCast_a_1a_apply]
  rfl

end

end Cert.LifLstm.HostPrefix

end
-- ==== Proof.Blocks.lean ====
/-
  From blocks to arrays: after the run, each result array IS the specification's array.

  The grid has 64 points; point `t` stages rows `256·t … 256·t + 255` of `x`, `hx`, `cx` and of both results, and the
  whole of the two stacked weight arrays and of the bias row at every point.  So entry `(p, q)` of a row block at
  point `t` is entry `(256·t + p, q)` of its array, and what point `t` writes back is block `t` of the
  specification's array.  The 64 blocks tile the 16384 rows: row `i` lies in block `i / 256`.
-/
import proofs.«109783_j14370960572434_2_alg».proof.Proof.Gen.KernelIdeal.Frame
import proofs.«109783_j14370960572434_2_alg».proof.Proof.BlockValue
import proofs.«109783_j14370960572434_2_alg».proof.Proof.HostPrefix
import proofs.«109783_j14370960572434_2_alg».proof.Proof.Spec
import Idealize.ShloMosaic.Lib.Pipeline.Value

set_option maxRecDepth 16384

noncomputable section

namespace Cert.LifLstm.Blocks

open Idealize.ShloMosaic Idealize.ShloMosaic.TcCoe Idealize.ShloMosaic.ValueIdx Idealize.SL.Sem
open Cert.KernelIdeal Cert.KernelIdeal.Gen Cert.LifLstm
open Idealize.ShloMosaic.Pipeline (Dat)

variable (m : (ℓ : Loc nD τ sig) → Buf (Elt Ideal) ℓ) (ρ : Dev nD → PrngReg)

/-! ## The argument arrays on a core -/

abbrev aX (c : Dev nD) : FVec Ideal SB .f32 := m ((c : Thread nD τ).loc main_arg0)
abbrev aHX (c : Dev nD) : FVec Ideal SB .f32 := m ((c : Thread nD τ).loc main_arg1)
abbrev aCX (c : Dev nD) : FVec Ideal SB .f32 := m ((c : Thread nD τ).loc main_arg2)
abbrev aWh (c : Dev nD) : FVec Ideal SW .f32 := m ((c : Thread nD τ).loc main_arg3)
abbrev abh (c : Dev nD) : FVec Ideal SV .f32 := m ((c : Thread nD τ).loc main_arg4)
abbrev aWi (c : Dev nD) : FVec Ideal SW .f32 := m ((c : Thread nD τ).loc main_arg5)
abbrev abi (c : Dev nD) : FVec Ideal SV .f32 := m ((c : Thread nD τ).loc main_arg6)

/-- The specification's two arrays of the arguments on core `c`. -/
abbrev hyOf (c : Dev nD) : FVec Ideal SB .f32 := Ghy (aX m c) (aHX m c) (aCX m c) (aWh m c) (abh m c) (aWi m c) (abi m c)
abbrev cyOf (c : Dev nD) : FVec Ideal SB .f32 := Gcy (aX m c) (aHX m c) (aCX m c) (aWh m c) (abh m c) (aWi m c) (abi m c)

/-! ## The index maps, decided over the 64 points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of block `t`, as a row of the array. -/
def row (t : Fin cfg0.N) (p : Fin 256) : Fin 16384 :=
  ⟨t.val * 256 + p.val, by have ht : t.val < 64 := t.isLt; omega⟩

/-! ## An entry of a block is an entry of its array -/

theorem emb0 (t : Fin cfg0.N) (p : Fin 256) (k : Fin 1024) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 256 + 1 * p.val = t.val * 256 + p.val; omega
  | ⟨1, _⟩ => show win0_0.index t (1 : Fin 2) * 1024 + 1 * k.val = k.val; omega

theorem emb1 (t : Fin cfg0.N) (p : Fin 256) (k : Fin 1024) :
    ((cfg0.win 1).blk t).view.emb (ix2 p k) = ix2 (row t p) k := by
  obtain ⟨-, -, e0, e1, -⟩ := idx_facts t
  funext a; apply Fin.ext
  match a with
  | ⟨0, _⟩ => show win0_1.index t (0 : Fin 2) * 256 + 1 * p.val = t.val * 256 + p.val; omega
  | ⟨1, _⟩ => show win0_1.index t (1 : Fin 2) * 1024 + 1 * k.val = k.val; omega

theorem emb2 (t : Fin cfg0.N) (p : Fin 256) (k : Fin 1024) :
    ((cfg0.win 2).blk t).view.emb (ix2 p k) = ix2 (row t p) k := by
  obtain ⟨-, -, -, -, e0, e1, -⟩ := idx_facts t
  funext a; apply Fin.ext
  match a with
  | ⟨0, _⟩ => show win0_2.index t (0 : Fin 2) * 256 + 1 * p.val = t.val * 256 + p.val; omega
  | ⟨1, _⟩ => show win0_2.index t (1 : Fin 2) * 1024 + 1 * k.val = k.val; omega

theorem emb3 (t : Fin cfg0.N) (i : S2048x4096.Idx) : ((cfg0.win 3).blk t).view.emb i = i := by
  obtain ⟨-, -, -, -, -, -, e0, e1, -⟩ := idx_facts t
  funext a; apply Fin.ext
  match a with
  | ⟨0, _⟩ => show win0_3.index t (0 : Fin 2) * 2048 + 1 * (i 0).val = (i 0).val; omega
  | ⟨1, _⟩ => show win0_3.index t (1 : Fin 2) * 4096 + 1 * (i 1).val = (i 1).val; omega

theorem emb4 (t : Fin cfg0.N) (i : S2048x4096.Idx) : ((cfg0.win 4).blk t).view.emb i = i := by
  obtain ⟨-, -, -, -, -, -, -, -, e0, e1, -⟩ := idx_facts t
  funext a; apply Fin.ext
  match a with
  | ⟨0, _⟩ => show win0_4.index t (0 : Fin 2) * 2048 + 1 * (i 0).val = (i 0).val; omega
  | ⟨1, _⟩ => show win0_4.index t (1 : Fin 2) * 4096 + 1 * (i 1).val = (i 1).val; omega

theorem emb5 (t : Fin cfg0.N) (i : S1x4096.Idx) : ((cfg0.win 5).blk t).view.emb i = i := by
  obtain ⟨-, -, -, -, -, -, -, -, -, -, e0, e1, -⟩ := idx_facts t
  funext a; apply Fin.ext
  match a with
  | ⟨0, _⟩ => show win0_5.index t (0 : Fin 2) * 1 + 1 * (i 0).val = (i 0).val; omega
  | ⟨1, _⟩ => show win0_5.index t (1 : Fin 2) * 4096 + 1 * (i 1).val = (i 1).val; omega

theorem emb6 (t : Fin cfg0.N) (p : Fin 256) (k : Fin 1024) :
    ((cfg0.win 6).blk t).view.emb (ix2 p k) = ix2 (row t p) k := by
  obtain ⟨-, -, -, -, -, -, -, -, -, -, -, -, e0, e1, -⟩ := idx_facts t
  funext a; apply Fin.ext
  match a with
  | ⟨0, _⟩ => show win0_6.index t (0 : Fin 2) * 256 + 1 * p.val = t.val * 256 + p.val; omega
  | ⟨1, _⟩ => show win0_6.index t (1 : Fin 2) * 1024 + 1 * k.val = k.val; omega

theorem emb7 (t : Fin cfg0.N) (p : Fin 256) (k : Fin 1024) :
    ((cfg0.win 7).blk t).view.emb (ix2 p k) = ix2 (row t p) k := by
  obtain ⟨-, -, -, -, -, -, -, -, -, -, -, -, -, -, e0, e1⟩ := idx_facts t
  funext a; apply Fin.ext
  match a with
  | ⟨0, _⟩ => show win0_7.index t (0 : Fin 2) * 256 + 1 * p.val = t.val * 256 + p.val; omega
  | ⟨1, _⟩ => show win0_7.index t (1 : Fin 2) * 1024 + 1 * k.val = k.val; omega

/-! ## What the staged blocks at a point hold -/

theorem blk0 (c : Dev nD) (t : Fin cfg0.N) (p : Fin 256) (k : Fin 1024) :
    iblk m c 0 t (ix2 p k) = aX m c (ix2 (row t p) k) := by
  show V m c main_arg0 (((cfg0.win 0).blk t).view.emb (ix2 p k)) = _
  rw [emb0, V_main_arg0]

theorem blk1 (c : Dev nD) (t : Fin cfg0.N) (p : Fin 256) (k : Fin 1024) :
    iblk m c 1 t (ix2 p k) = aHX m c (ix2 (row t p) k) := by
  show V m c main_arg1 (((cfg0.win 1).blk t).view.emb (ix2 p k)) = _
  rw [emb1, V_main_arg1]

theorem blk2 (c : Dev nD) (t : Fin cfg0.N) (p : Fin 256) (k : Fin 1024) :
    iblk m c 2 t (ix2 p k) = aCX m c (ix2 (row t p) k) := by
  show V m c main_arg2 (((cfg0.win 2).blk t).view.emb (ix2 p k)) = _
  rw [emb2, V_main_arg2]

/-- The high-weight block: the first weight matrix transposed in its rows 0–1023, -/
theorem blk3_lo (c : Dev nD) (t : Fin cfg0.N) (k : Fin 1024) (j : Fin 4096) :
    iblk m c 3 t (ix2 (lo k) j) = aWh m c (ix2 j k) := by
  show V m c main_v3 (((cfg0.win 3).blk t).view.emb (ix2 (lo k) j)) = _
  rw [emb3]
  exact HostPrefix.hi_lo m c k j

/-- the second in its rows 1024–2047. -/
theorem blk3_hi (c : Dev nD) (t : Fin cfg0.N) (k : Fin 1024) (j : Fin 4096) :
    iblk m c 3 t (ix2 (hi k) j) = aWi m c (ix2 j k) := by
  show V m c main_v3 (((cfg0.win 3).blk t).view.emb (ix2 (hi k) j)) = _
  rw [emb3]
  exact HostPrefix.hi_hi m c k j

/-- The low-weight block is the high-weight block minus itself. -/
theorem blk4 (c : Dev nD) (t : Fin cfg0.N) (i : S2048x4096.Idx) :
    iblk m c 4 t i = HSub.hSub (α := EReal) (β := EReal) (γ := EReal) (iblk m c 3 t i) (iblk m c 3 t i) := by
  show V m c main_v6 (((cfg0.win 4).blk t).view.emb i)
    = HSub.hSub (α := EReal) (β := EReal) (γ := EReal) (V m c main_v3 (((cfg0.win 3).blk t).view.emb i))
        (V m c main_v3 (((cfg0.win 3).blk t).view.emb i))
  rw [emb3, emb4]
  exact HostPrefix.lo_eq m c i

/-- The bias block is the sum of the two bias vectors. -/
theorem blk5 (c : Dev nD) (t : Fin cfg0.N) (j : Fin 4096) :
    iblk m c 5 t (ix2 (0 : Fin 1) j)
      = HAdd.hAdd (α := EReal) (β := EReal) (γ := EReal) (abh m c (ix1 j)) (abi m c (ix1 j)) := by
  show V m c main_v8 (((cfg0.win 5).blk t).view.emb (ix2 (0 : Fin 1) j)) = _
  rw [emb5]
  exact HostPrefix.bias m c j

/-! ## What a point writes back is its block of the specification -/

theorem ext_block (f g : S256x1024.Idx → EReal) (h : ∀ (p : Fin 256) (q : Fin 1024), f (ix2 p q) = g (ix2 p q)) : f = g :=
  funext fun y => (congrArg f (eq_ix2 y)).trans ((h _ _).trans (congrArg g (eq_ix2 y)).symm)

section Finite

variable (fX : ∀ c i, ∃ v : ℝ, aX m c i = (v : EReal)) (fHX : ∀ c i, ∃ v : ℝ, aHX m c i = (v : EReal))
  (fWh : ∀ c i, ∃ v : ℝ, aWh m c i = (v : EReal)) (fWi : ∀ c i, ∃ v : ℝ, aWi m c i = (v : EReal))
include fX fHX fWh fWi

theorem flushed7_eq (c : Dev nD) (t : Fin cfg0.N) :
    (dats m 0 c).flushed 7 t = ((cfg0.win 7).blk t).view.read (Elt Ideal) (cyOf m c) := by
  show (cfg0.win 7).cut (grid0.coords t) ((dats m 0 c).after 7 t) = _
  rw [after0_7]
  refine ext_block _ _ fun p q => ?_
  show out0_7 (iblk m c 0 t) (iblk m c 1 t) (iblk m c 2 t) (iblk m c 3 t) (iblk m c 4 t) (iblk m c 5 t) (ix2 p q)
    = cyOf m c (((cfg0.win 7).blk t).view.emb (ix2 p q))
  rw [emb7]
  exact BlockValue.out7_at (iblk m c 0 t) (iblk m c 1 t) (iblk m c 2 t) (iblk m c 3 t) (iblk m c 4 t) (iblk m c 5 t)
    (aX m c) (aHX m c) (aCX m c) (aWh m c) (abh m c) (aWi m c) (abi m c) p (row t p)
    (blk0 m c t p) (blk1 m c t p) (blk2 m c t p) (blk3_lo m c t) (blk3_hi m c t) (blk4 m c t) (blk5 m c t)
    (fX c) (fHX c) (fWh c) (fWi c) q

theorem flushed6_eq (c : Dev nD) (t : Fin cfg0.N) :
    (dats m 0 c).flushed 6 t = ((cfg0.win 6).blk t).view.read (Elt Ideal) (hyOf m c) := by
  show (cfg0.win 6).cut (grid0.coords t) ((dats m 0 c).after 6 t) = _
  rw [after0_6]
  refine ext_block _ _ fun p q => ?_
  show out0_6 (iblk m c 0 t) (iblk m c 1 t) (iblk m c 2 t) (iblk m c 3 t) (iblk m c 4 t) (iblk m c 5 t) (ix2 p q)
    = hyOf m c (((cfg0.win 6).blk t).view.emb (ix2 p q))
  rw [emb6]
  exact BlockValue.out6_at (iblk m c 0 t) (iblk m c 1 t) (iblk m c 2 t) (iblk m c 3 t) (iblk m c 4 t) (iblk m c 5 t)
    (aX m c) (aHX m c) (aCX m c) (aWh m c) (abh m c) (aWi m c) (abi m c) p (row t p)
    (blk0 m c t p) (blk1 m c t p) (blk2 m c t p) (blk3_lo m c t) (blk3_hi m c t) (blk4 m c t) (blk5 m c t)
    (fX c) (fHX c) (fWh c) (fWi c) q

end Finite

/-! ## The 64 blocks tile the rows -/

theorem mem_blk6 (t : Fin cfg0.N) (i : S16384x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v9_0).slice (win0_6.rect t)).set ↔ _
  rw [View.set_slice_whole, Rect.mem_set_unit]
  exact Iff.rfl

theorem mem_blk7 (t : Fin cfg0.N) (i : S16384x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v9_1).slice (win0_7.rect t)).set ↔ _
  rw [View.set_slice_whole, Rect.mem_set_unit]
  exact Iff.rfl

/-- The point whose block holds row `i`. -/
def pointOf (i : S16384x1024.Idx) : Fin cfg0.N :=
  ⟨(i 0).val / 256, by have h : (i 0).val < 16384 := (i 0).isLt; show (i 0).val / 256 < 64; omega⟩

theorem cover6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  refine ⟨pointOf i, flush0_6 _, ?_⟩
  rw [mem_blk6]
  obtain ⟨-, -, -, -, -, -, -, -, -, -, -, -, e0, e1, -⟩ := idx_facts (pointOf i)
  have et : (pointOf i).val = (i 0).val / 256 := rfl
  intro a
  match a with
  | ⟨0, _⟩ =>
    show win0_6.index (pointOf i) (0 : Fin 2) * 256 ≤ (i 0).val
      ∧ (i 0).val < win0_6.index (pointOf i) (0 : Fin 2) * 256 + 256
    omega
  | ⟨1, _⟩ =>
    show win0_6.index (pointOf i) (1 : Fin 2) * 1024 ≤ (i 1).val
      ∧ (i 1).val < win0_6.index (pointOf i) (1 : Fin 2) * 1024 + 1024
    omega

theorem cover7 (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  refine ⟨pointOf i, flush0_7 _, ?_⟩
  rw [mem_blk7]
  obtain ⟨-, -, -, -, -, -, -, -, -, -, -, -, -, -, e0, e1⟩ := idx_facts (pointOf i)
  have et : (pointOf i).val = (i 0).val / 256 := rfl
  intro a
  match a with
  | ⟨0, _⟩ =>
    show win0_7.index (pointOf i) (0 : Fin 2) * 256 ≤ (i 0).val
      ∧ (i 0).val < win0_7.index (pointOf i) (0 : Fin 2) * 256 + 256
    omega
  | ⟨1, _⟩ =>
    show win0_7.index (pointOf i) (1 : Fin 2) * 1024 ≤ (i 1).val
      ∧ (i 1).val < win0_7.index (pointOf i) (1 : Fin 2) * 1024 + 1024
    omega

/-! ## The arrays after the run, and the run -/

section Finite

variable (fX : ∀ c i, ∃ v : ℝ, aX m c i = (v : EReal)) (fHX : ∀ c i, ∃ v : ℝ, aHX m c i = (v : EReal))
  (fWh : ∀ c i, ∃ v : ℝ, aWh m c i = (v : EReal)) (fWi : ∀ c i, ∃ v : ℝ, aWi m c i = (v : EReal))
include fX fHX fWh fWi

theorem final6 (c : Dev nD) : (dats m 0 c).arrAt 6 cfg0.N = hyOf m c :=
  (dats m 0 c).arrAt_eq_of_cover 6 (hyOf m c) (fun t _ => flushed6_eq m fX fHX fWh fWi c t) cover6

theorem final7 (c : Dev nD) : (dats m 0 c).arrAt 7 cfg0.N = cyOf m c :=
  (dats m 0 c).arrAt_eq_of_cover 7 (cyOf m c) (fun t _ => flushed7_eq m fX fHX fWh fWi c t) cover7

/-- Every weakly fair execution of the program terminates with the hidden-state result at the specification's
    hidden state, the cell-state result at its cell state, and the seven arguments as launched. -/
theorem run : θ_run defs (onTc (τ := τ) (main (F := Ideal))) ⟨m, fun _ => 0, ρ⟩ fun r => ∀ c : Dev nD,
      r.2.mem ((c.tc : Thread nD τ).loc main_v9_0) = hyOf m c
      ∧ r.2.mem ((c.tc : Thread nD τ).loc main_v9_1) = cyOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 6).trans (final6 m fX fHX fWh fWi c),
      ((h c).1 7).trans (final7 m fX fHX fWh fWi c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Finite

end Cert.LifLstm.Blocks

end
-- ==== Proof.Finite.lean ====
/-
  From the precondition "every float input is finite" to "every entry is a real number", at the ideal
  instance (floats are extended reals). The precondition is a conjunction, over the seven inputs, of
  "all entries x satisfy |x| < +∞", where |x| = max x (-x) and +∞ is what the f32 pattern 0x7F800000 denotes.
  An extended real whose absolute value is strictly below ⊤ is neither ⊤ nor ⊥, hence the image of a real.
-/
import proofs.«109783_j14370960572434_2_alg».proof.Pre_finite_inputs
import Idealize.ShloMosaic.PureOps.Ideal
import Idealize.ShloMosaic.Lib.ReduceAll
import Idealize.ShloMosaic.Lib.ValueIdx

noncomputable section

namespace Cert.LifLstm.Finite

open Idealize.ShloMosaic
open Cert.Pre_finite_inputs (S_ S4096 S4096x1024 S16384x1024)

/-- The rank-0 shape has exactly one index. -/
instance : Subsingleton S_.Idx := ⟨fun a b => funext fun d => d.elim0⟩

/-- The f32 pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct of the precondition: if the conjunction over all entries of |x| < +∞ holds, every entry is real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ValueIdx.ix0 = 1#1) :
    ∀ i, ∃ r : ℝ, x i = (r : EReal) := by
  intro i
  have hi := Host.reduce_andi_all _ _ hr hu ValueIdx.ix0 e i
  have hi' : BitVec.ofBool (decide (max (x i) (-(x i)) < Ideal.ofBits .f32 0x7F800000#32)) = 1#1 := hi
  rw [ofBits_inf] at hi'
  refine real_of_abs_lt_top _ ?_
  by_contra hn
  rw [decide_eq_false hn] at hi'
  exact absurd hi' (by decide)

variable [Cert.Pre_finite_inputs.Facts]

/-- The precondition decoded: every entry of every one of the seven inputs is a real number. -/
theorem real_of_pre_all (a0 a1 a2 : FVec Ideal Cert.Pre_finite_inputs.S16384x1024 .f32) (a3 : FVec Ideal Cert.Pre_finite_inputs.S4096x1024 .f32) (a4 : FVec Ideal Cert.Pre_finite_inputs.S4096 .f32) (a5 : FVec Ideal Cert.Pre_finite_inputs.S4096x1024 .f32) (a6 : FVec Ideal Cert.Pre_finite_inputs.S4096 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) := by
  have e := congrFun h ValueIdx.ix0
  dsimp only [Cert.Pre_finite_inputs.fn, Cert.Pre_finite_inputs.fn_part1] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6⟩

/-- The four inputs the algebraic law needs (inputs 0, 1, 3, 5). -/
theorem real_of_pre (a0 a1 a2 : FVec Ideal Cert.Pre_finite_inputs.S16384x1024 .f32) (a3 : FVec Ideal Cert.Pre_finite_inputs.S4096x1024 .f32) (a4 : FVec Ideal Cert.Pre_finite_inputs.S4096 .f32) (a5 : FVec Ideal Cert.Pre_finite_inputs.S4096x1024 .f32) (a6 : FVec Ideal Cert.Pre_finite_inputs.S4096 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a3 i = (r : EReal)) ∧ (∀ i, ∃ r : ℝ, a5 i = (r : EReal)) := by
  obtain ⟨h0, h1, -, h3, -, h5, -⟩ := real_of_pre_all a0 a1 a2 a3 a4 a5 a6 h
  exact ⟨h0, h1, h3, h5⟩

end Cert.LifLstm.Finite

end
-- ==== Proof.RefIsSpec.lean ====
/-
  The reference program, read one element at a time, is the specification.

  The reference forms the 4096 membrane values of a batch row as
  `((hx · Whᵀ + bh) + x · Wiᵀ) + bi`, cuts them into four quarters of 1024 columns, thresholds each quarter,
  and combines the spikes: `cy = f · cx + i · g`, `hy = o · spk cy`.  Each of its operations reads its operands
  at an index computed from the result's index; composing those index maps gives exactly the coordinates the
  specification names, so the two results are the specification's two arrays.
-/
import proofs.«109783_j14370960572434_2_alg».proof.Proof.Gen.ReferenceIdeal.Read
import proofs.«109783_j14370960572434_2_alg».proof.Proof.Spec

noncomputable section

namespace Cert.LifLstm.RefIsSpec

open Idealize.ShloMosaic Idealize.ShloMosaic.ValueIdx Cert.ReferenceIdeal Cert.ReferenceIdeal.Read

section Stages

variable (x0 x1 x2 : FVec Ideal S16384x1024 .f32) (x3 : FVec Ideal S4096x1024 .f32) (x4 : FVec Ideal S4096 .f32)
  (x5 : FVec Ideal S4096x1024 .f32) (x6 : FVec Ideal S4096 .f32)

/-! ## The two products -/

/-- The product with the transposed recurrent weights: entry `(r, j)` is row `r` of `hx` against row `j` of `Wh`. -/
theorem dot_h (r : Fin 16384) (j : Fin 4096) :
    val_main_v1 (F := Ideal) x1 x3 (ix2 r j) = ∑ k : Fin 1024, x1 (ix2 r k) * x3 (ix2 j k) := by
  rw [val_main_v1_apply]
  refine Finset.sum_congr rfl fun k _ => ?_
  rw [val_main_v0_apply]
  have el : lidx_main_v1 (ix2 r j) k = ix2 r k :=
    funext fun a => Fin.ext (by match a with | ⟨0, _⟩ => rfl | ⟨1, _⟩ => rfl)
  have er : idx_main_v0 (ridx_main_v1 (ix2 r j) k) = ix2 j k :=
    funext fun a => Fin.ext (by match a with | ⟨0, _⟩ => rfl | ⟨1, _⟩ => rfl)
  rw [el, er]

/-- The product with the transposed input weights: entry `(r, j)` is row `r` of `x` against row `j` of `Wi`. -/
theorem dot_x (r : Fin 16384) (j : Fin 4096) :
    val_main_v6 (F := Ideal) x0 x5 (ix2 r j) = ∑ k : Fin 1024, x0 (ix2 r k) * x5 (ix2 j k) := by
  rw [val_main_v6_apply]
  refine Finset.sum_congr rfl fun k _ => ?_
  rw [val_main_v5_apply]
  have el : lidx_main_v6 (ix2 r j) k = ix2 r k :=
    funext fun a => Fin.ext (by match a with | ⟨0, _⟩ => rfl | ⟨1, _⟩ => rfl)
  have er : idx_main_v5 (ridx_main_v6 (ix2 r j) k) = ix2 j k :=
    funext fun a => Fin.ext (by match a with | ⟨0, _⟩ => rfl | ⟨1, _⟩ => rfl)
  rw [el, er]

/-! ## The two biases, broadcast along the batch -/

/-- The recurrent bias spread over the rows reads entry `j` in column `j`. -/
theorem bias_h (r : Fin 16384) (j : Fin 4096) : val_main_v3 (F := Ideal) x4 (ix2 r j) = x4 (ix1 j) := by
  rw [val_main_v3_apply, val_main_v2_apply]
  have e : idx_main_v2 (idx_main_v3 (ix2 r j)) = ix1 j :=
    funext fun a => Fin.ext (by match a with | ⟨0, _⟩ => rfl)
  rw [e]

/-- The input bias spread over the rows reads entry `j` in column `j`. -/
theorem bias_x (r : Fin 16384) (j : Fin 4096) : val_main_v9 (F := Ideal) x6 (ix2 r j) = x6 (ix1 j) := by
  rw [val_main_v9_apply, val_main_v8_apply]
  have e : idx_main_v8 (idx_main_v9 (ix2 r j)) = ix1 j :=
    funext fun a => Fin.ext (by match a with | ⟨0, _⟩ => rfl)
  rw [e]

/-! ## The membrane value -/

/-- Entry `(r, j)` of the summed array is the membrane value of gate column `j` on batch row `r`. -/
theorem gate_at (r : Fin 16384) (j : Fin 4096) :
    val_main_v10 (F := Ideal) x0 x1 x3 x4 x5 x6 (ix2 r j) = gate x0 x1 x3 x4 x5 x6 r j := by
  rw [val_main_v10_apply, val_main_v7_apply, val_main_v4_apply, dot_h, bias_h, dot_x, bias_x]
  simp only [Ideal.addf_def]
  rfl

/-! ## The four quarters -/

/-- The first quarter reads column `q`. -/
theorem quarter0 (r : Fin 16384) (q : Fin 1024) :
    val_main_v11 (F := Ideal) x0 x1 x3 x4 x5 x6 (ix2 r q) = gate x0 x1 x3 x4 x5 x6 r (col 0 (by omega) q) := by
  rw [val_main_v11_apply]
  have e : idx_main_v11 (ix2 r q) = ix2 r (col 0 (by omega) q) :=
    funext fun a => Fin.ext (by
      match a with
      | ⟨0, _⟩ => rfl
      | ⟨1, _⟩ => show q.val = 0 + q.val; omega)
  rw [e, gate_at]

/-- The second quarter reads column `1024 + q`. -/
theorem quarter1 (r : Fin 16384) (q : Fin 1024) :
    val_main_v12 (F := Ideal) x0 x1 x3 x4 x5 x6 (ix2 r q) = gate x0 x1 x3 x4 x5 x6 r (col 1024 (by omega) q) := by
  rw [val_main_v12_apply]
  have e : idx_main_v12 (ix2 r q) = ix2 r (col 1024 (by omega) q) :=
    funext fun a => Fin.ext (by
      match a with
      | ⟨0, _⟩ => rfl
      | ⟨1, _⟩ => rfl)
  rw [e, gate_at]

/-- The third quarter reads column `2048 + q`. -/
theorem quarter2 (r : Fin 16384) (q : Fin 1024) :
    val_main_v13 (F := Ideal) x0 x1 x3 x4 x5 x6 (ix2 r q) = gate x0 x1 x3 x4 x5 x6 r (col 2048 (by omega) q) := by
  rw [val_main_v13_apply]
  have e : idx_main_v13 (ix2 r q) = ix2 r (col 2048 (by omega) q) :=
    funext fun a => Fin.ext (by
      match a with
      | ⟨0, _⟩ => rfl
      | ⟨1, _⟩ => rfl)
  rw [e, gate_at]

/-- The fourth quarter reads column `3072 + q`. -/
theorem quarter3 (r : Fin 16384) (q : Fin 1024) :
    val_main_v14 (F := Ideal) x0 x1 x3 x4 x5 x6 (ix2 r q) = gate x0 x1 x3 x4 x5 x6 r (col 3072 (by omega) q) := by
  rw [val_main_v14_apply]
  have e : idx_main_v14 (ix2 r q) = ix2 r (col 3072 (by omega) q) :=
    funext fun a => Fin.ext (by
      match a with
      | ⟨0, _⟩ => rfl
      | ⟨1, _⟩ => rfl)
  rw [e, gate_at]

/-! ## The spikes -/

/-- The input gate's spike. -/
theorem spike_i (r : Fin 16384) (q : Fin 1024) :
    val_main_v17 (F := Ideal) x0 x1 x3 x4 x5 x6 (ix2 r q) = spk (gate x0 x1 x3 x4 x5 x6 r (col 0 (by omega) q)) := by
  rw [val_main_v17_apply, val_main_v16_apply, quarter0, val_main_v15_apply, val_main_cst_apply, Ideal.ofBits_def]
  rfl

/-- The forget gate's spike. -/
theorem spike_f (r : Fin 16384) (q : Fin 1024) :
    val_main_v20 (F := Ideal) x0 x1 x3 x4 x5 x6 (ix2 r q) = spk (gate x0 x1 x3 x4 x5 x6 r (col 1024 (by omega) q)) := by
  rw [val_main_v20_apply, val_main_v19_apply, quarter1, val_main_v18_apply, val_main_cst_0_apply, Ideal.ofBits_def]
  rfl

/-- The candidate gate's spike. -/
theorem spike_g (r : Fin 16384) (q : Fin 1024) :
    val_main_v23 (F := Ideal) x0 x1 x3 x4 x5 x6 (ix2 r q) = spk (gate x0 x1 x3 x4 x5 x6 r (col 2048 (by omega) q)) := by
  rw [val_main_v23_apply, val_main_v22_apply, quarter2, val_main_v21_apply, val_main_cst_1_apply, Ideal.ofBits_def]
  rfl

/-- The output gate's spike. -/
theorem spike_o (r : Fin 16384) (q : Fin 1024) :
    val_main_v26 (F := Ideal) x0 x1 x3 x4 x5 x6 (ix2 r q) = spk (gate x0 x1 x3 x4 x5 x6 r (col 3072 (by omega) q)) := by
  rw [val_main_v26_apply, val_main_v25_apply, quarter3, val_main_v24_apply, val_main_cst_2_apply, Ideal.ofBits_def]
  rfl

/-! ## The two results -/

/-- Entry `(r, q)` of the cell-state result. -/
theorem cy_at (r : Fin 16384) (q : Fin 1024) :
    val_main_v29 (F := Ideal) x0 x1 x2 x3 x4 x5 x6 (ix2 r q) = cyAt x0 x1 x2 x3 x4 x5 x6 r q := by
  rw [val_main_v29_apply, val_main_v27_apply, val_main_v28_apply, spike_f, spike_i, spike_g]
  simp only [Ideal.addf_def, Ideal.mulf_def]
  rfl

/-- Entry `(r, q)` of the hidden-state result. -/
theorem hy_at (r : Fin 16384) (q : Fin 1024) :
    val_main_v33 (F := Ideal) x0 x1 x2 x3 x4 x5 x6 (ix2 r q) = hyAt x0 x1 x2 x3 x4 x5 x6 r q := by
  rw [val_main_v33_apply, val_main_v32_apply, val_main_v31_apply, spike_o, cy_at, val_main_v30_apply,
    val_main_cst_3_apply, Ideal.ofBits_def]
  simp only [Ideal.mulf_def]
  rfl

end Stages

/-- The reference's cell-state result is the specification's. -/
theorem ref_cy (x0 x1 x2 : FVec Ideal Cert.ReferenceIdeal.S16384x1024 .f32) (x3 : FVec Ideal Cert.ReferenceIdeal.S4096x1024 .f32)
    (x4 : FVec Ideal Cert.ReferenceIdeal.S4096 .f32) (x5 : FVec Ideal Cert.ReferenceIdeal.S4096x1024 .f32)
    (x6 : FVec Ideal Cert.ReferenceIdeal.S4096 .f32) :
    Cert.ReferenceIdeal.Read.val_main_v29 (F := Ideal) x0 x1 x2 x3 x4 x5 x6 = Cert.LifLstm.Gcy x0 x1 x2 x3 x4 x5 x6 := by
  funext i
  obtain ⟨r, q, rfl⟩ : ∃ (r : Fin 16384) (q : Fin 1024), i = ix2 r q := ⟨i 0, i 1, eq_ix2 i⟩
  rw [cy_at]
  rfl

/-- The reference's hidden-state result is the specification's. -/
theorem ref_hy (x0 x1 x2 : FVec Ideal Cert.ReferenceIdeal.S16384x1024 .f32) (x3 : FVec Ideal Cert.ReferenceIdeal.S4096x1024 .f32)
    (x4 : FVec Ideal Cert.ReferenceIdeal.S4096 .f32) (x5 : FVec Ideal Cert.ReferenceIdeal.S4096x1024 .f32)
    (x6 : FVec Ideal Cert.ReferenceIdeal.S4096 .f32) :
    Cert.ReferenceIdeal.Read.val_main_v33 (F := Ideal) x0 x1 x2 x3 x4 x5 x6 = Cert.LifLstm.Ghy x0 x1 x2 x3 x4 x5 x6 := by
  funext i
  obtain ⟨r, q, rfl⟩ : ∃ (r : Fin 16384) (q : Fin 1024), i = ix2 r q := ⟨i 0, i 1, eq_ix2 i⟩
  rw [hy_at]
  rfl

end Cert.LifLstm.RefIsSpec

end
-- ==== Proof.lean ====
/-
  One step of a spiking LSTM cell: a pipelined kernel over 64 row blocks against the plain array program.

  Both programs compute, for every batch row `r` and every gate column `j`, the membrane value
  `((∑ₖ hx r k · Wh j k + bh j) + ∑ₖ x r k · Wi j k) + bi j`, threshold the four quarters of the columns into the
  input, forget, candidate and output spikes, and return `cy = f · cx + i · g` and `hy = o · spike cy`.

  The kernel forms each membrane value differently: it concatenates `z = [hx | x]`, stacks the two transposed weight
  matrices into one array `W`, splits both into a half-precision part and a remainder, and adds three products,
  `z·W + z·(W − W) + (z − z)·W`, and then the sum `bh + bi`.  Over the extended reals the narrowing to half precision
  is the identity, so the remainders are `W − W` and `z − z`; these vanish exactly when the entries are real, which
  is what the precondition gives (an infinite entry would make `∞ − ∞`).  What is left is the sum over the 2048
  concatenated columns split into its two halves, and a rearrangement of a sum of four terms.

  The specification is Spec.lean; the reference is the specification (RefIsSpec.lean, over the reference's run read one
  operation at a time); real entries from the precondition (Finite.lean); the arrays the kernel's host prefix stages
  (HostPrefix.lean); one grid point's two output blocks are the specification's (Payload.lean, BlockValue.lean); the 64
  blocks tile the arrays (Blocks.lean).
-/
import proofs.«109783_j14370960572434_2_alg».proof.Defs
import proofs.«109783_j14370960572434_2_alg».proof.Proof.Gen.Kernel
import proofs.«109783_j14370960572434_2_alg».proof.Proof.Gen.Kernel.Skeleton
import proofs.«109783_j14370960572434_2_alg».proof.Proof.Gen.Kernel.Launch
import proofs.«109783_j14370960572434_2_alg».proof.Proof.Gen.Kernel.Points
import proofs.«109783_j14370960572434_2_alg».proof.Proof.Gen.Kernel.Frame
import proofs.«109783_j14370960572434_2_alg».proof.Proof.Gen.KernelIdeal
import proofs.«109783_j14370960572434_2_alg».proof.Proof.Gen.KernelIdeal.Skeleton
import proofs.«109783_j14370960572434_2_alg».proof.Proof.Gen.KernelIdeal.Launch
import proofs.«109783_j14370960572434_2_alg».proof.Proof.Gen.KernelIdeal.Points
import proofs.«109783_j14370960572434_2_alg».proof.Proof.Gen.KernelIdeal.Frame
import proofs.«109783_j14370960572434_2_alg».proof.Proof.Gen.ReferenceIdeal
import proofs.«109783_j14370960572434_2_alg».proof.Proof.Gen.Pre_finite_inputs
import proofs.«109783_j14370960572434_2_alg».proof.Proof.Gen.ReferenceIdeal.Run
import proofs.«109783_j14370960572434_2_alg».proof.Proof.Gen.ReferenceIdeal.Read
import proofs.«109783_j14370960572434_2_alg».proof.Proof.Blocks
import proofs.«109783_j14370960572434_2_alg».proof.Proof.Finite
import proofs.«109783_j14370960572434_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: widening after narrowing to half precision is the identity on the extended
    reals, and the rounding through half precision on words. -/
theorem preserves : Cert.preserves_Kernel_KernelIdeal :=
  IdealRules.truncf_extf.statement Cert.KernelIdeal.S256x2048 .f32 .bf16

/-- From memories agreeing on the arguments, whose entries the precondition makes real, both programs end with the
    specification's hidden state and cell state of those arguments. -/
theorem algebraic : Cert.algebraic_KernelIdeal_ReferenceIdeal := by
  intro m ρ m' ρ' hpre hagree
  have hfin := fun c => Cert.LifLstm.Finite.real_of_pre _ _ _ _ _ _ _ (hpre c)
  refine ⟨fun c => Cert.LifLstm.Blocks.hyOf m c, fun c => Cert.LifLstm.Blocks.cyOf m c,
    Cert.LifLstm.Blocks.run m ρ (fun c => (hfin c).1) (fun c => (hfin c).2.1) (fun c => (hfin c).2.2.1)
      (fun c => (hfin c).2.2.2), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v33_eq, Cert.LifLstm.RefIsSpec.ref_hy, (hagree c).1, (hagree c).2.1,
      (hagree c).2.2.1, (hagree c).2.2.2.1, (hagree c).2.2.2.2.1, (hagree c).2.2.2.2.2.1, (hagree c).2.2.2.2.2.2]
  · rw [Cert.ReferenceIdeal.Read.val_main_v29_eq, Cert.LifLstm.RefIsSpec.ref_cy, (hagree c).1, (hagree c).2.1,
      (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
